-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256x7x7 : Shape := ⟨4, ![4096, 256, 7, 7]⟩
abbrev S80x12544 : Shape := ⟨2, ![80, 12544]⟩
abbrev S324x12544 : Shape := ⟨2, ![324, 12544]⟩
abbrev S324 : Shape := ⟨1, ![324]⟩
abbrev S_ : Shape := ⟨0, ![]⟩

class Facts : Prop where
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  h_S_ : 0 < S_.numel
  bcast_S_S80x12544 : S_.BroadcastsInDim S80x12544 (![] : Fin 0 → Fin S80x12544.rank)
  reducesTo_S80x12544_S_d0_1 : S80x12544.ReducesTo [0, 1] S_
  bcast_S_S324x12544 : S_.BroadcastsInDim S324x12544 (![] : Fin 0 → Fin S324x12544.rank)
  reducesTo_S324x12544_S_d0_1 : S324x12544.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_v13 : IVec S_ 1) (main_v16 : IVec S324 1) : IVec S_ 1 :=
  let main_c_5 : IVec S_ 1 := constantI S_ 1 1#1
  let main_v17 : IVec S_ 1 := (fun x v => Host.reduce IntOp.andi x v reducesTo_S324_S_d0 h_S_) main_v16 main_c_5
  let main_v18 : IVec S_ 1 := andi main_v13 main_v17
  main_v18

def fn {F : FTy → Type} [FloatOps F] (main_arg0 : FVec F S4096x256x7x7 .f32) (main_arg1 : FVec F S80x12544 .f32) (main_arg2 : FVec F S324x12544 .f32) (main_arg3 : FVec F S324 .f32) : IVec S_ 1 :=
  let main_v0 : FVec F S4096x256x7x7 .f32 := Host.absf main_arg0
  let main_cst : FVec F S_ .f32 := constant S_ .f32 0x7F800000#32
  let main_v1 : FVec F S4096x256x7x7 .f32 := broadcastInDim S4096x256x7x7 ![] bcast_S_S4096x256x7x7 main_cst
  let main_v2 : IVec S4096x256x7x7 1 := cmpf .olt main_v0 main_v1
  let main_c : IVec S_ 1 := constantI S_ 1 1#1
  let main_v3 : IVec S_ 1 := (fun x v => Host.reduce IntOp.andi x v reducesTo_S4096x256x7x7_S_d0_1_2_3 h_S_) main_v2 main_c
  let main_v4 : FVec F S80x12544 .f32 := Host.absf main_arg1
  let main_cst_0 : FVec F S_ .f32 := constant S_ .f32 0x7F800000#32
  let main_v5 : FVec F S80x12544 .f32 := broadcastInDim S80x12544 ![] bcast_S_S80x12544 main_cst_0
  let main_v6 : IVec S80x12544 1 := cmpf .olt main_v4 main_v5
  let main_c_1 : IVec S_ 1 := constantI S_ 1 1#1
  let main_v7 : IVec S_ 1 := (fun x v => Host.reduce IntOp.andi x v reducesTo_S80x12544_S_d0_1 h_S_) main_v6 main_c_1
  let main_v8 : IVec S_ 1 := andi main_v3 main_v7
  let main_v9 : FVec F S324x12544 .f32 := Host.absf main_arg2
  let main_cst_2 : FVec F S_ .f32 := constant S_ .f32 0x7F800000#32
  let main_v10 : FVec F S324x12544 .f32 := broadcastInDim S324x12544 ![] bcast_S_S324x12544 main_cst_2
  let main_v11 : IVec S324x12544 1 := cmpf .olt main_v9 main_v10
  let main_c_3 : IVec S_ 1 := constantI S_ 1 1#1
  let main_v12 : IVec S_ 1 := (fun x v => Host.reduce IntOp.andi x v reducesTo_S324x12544_S_d0_1 h_S_) main_v11 main_c_3
  let main_v13 : IVec S_ 1 := andi main_v8 main_v12
  let main_v14 : FVec F S324 .f32 := Host.absf main_arg3
  let main_cst_4 : FVec F S_ .f32 := constant S_ .f32 0x7F800000#32
  let main_v15 : FVec F S324 .f32 := broadcastInDim S324 ![] bcast_S_S324 main_cst_4
  let main_v16 : IVec S324 1 := cmpf .olt main_v14 main_v15
  fn_part1 (F := F) main_v13 main_v16
-- ==== Kernel.lean ====
abbrev S4096x256x7x7 : Shape := ⟨4, ![4096, 256, 7, 7]⟩
abbrev S80x12544 : Shape := ⟨2, ![80, 12544]⟩
abbrev S324x12544 : Shape := ⟨2, ![324, 12544]⟩
abbrev S324 : Shape := ⟨1, ![324]⟩
abbrev S4096x12544 : Shape := ⟨2, ![4096, 12544]⟩
abbrev S_ : Shape := ⟨0, ![]⟩
abbrev S80 : Shape := ⟨1, ![80]⟩
abbrev S80x1 : Shape := ⟨2, ![80, 1]⟩
abbrev S12544x80 : Shape := ⟨2, ![12544, 80]⟩
abbrev S12544x324 : Shape := ⟨2, ![12544, 324]⟩
abbrev S12544x128 : Shape := ⟨2, ![12544, 128]⟩
abbrev S12544x384 : Shape := ⟨2, ![12544, 384]⟩
abbrev S12544x512 : Shape := ⟨2, ![12544, 512]⟩
abbrev S384 : Shape := ⟨1, ![384]⟩
abbrev S1x384 : Shape := ⟨2, ![1, 384]⟩
abbrev S4096x80 : Shape := ⟨2, ![4096, 80]⟩
abbrev S4096x324 : Shape := ⟨2, ![4096, 324]⟩
abbrev S128x12544 : Shape := ⟨2, ![128, 12544]⟩
abbrev S128x80 : Shape := ⟨2, ![128, 80]⟩
abbrev S128x324 : Shape := ⟨2, ![128, 324]⟩
abbrev S128 : Shape := ⟨1, ![128]⟩
abbrev S128x1 : Shape := ⟨2, ![128, 1]⟩
abbrev S128x512 : Shape := ⟨2, ![128, 512]⟩
abbrev S1x324 : Shape := ⟨2, ![1, 324]⟩

abbrev nBuf : Space → Nat
  | .hbm => 32
  | .vmem => 8
  | .smem => 0
  | _ => 0

abbrev bufTy : (tb : Table) → Fin (tcTables nBuf tb) → BufTy
  | .hbm, ⟨0, _⟩ => ⟨S4096x256x7x7, .f32⟩
  | .hbm, ⟨1, _⟩ => ⟨S80x12544, .f32⟩
  | .hbm, ⟨2, _⟩ => ⟨S324x12544, .f32⟩
  | .hbm, ⟨3, _⟩ => ⟨S324, .f32⟩
  | .hbm, ⟨4, _⟩ => ⟨S4096x12544, .f32⟩
  | .hbm, ⟨5, _⟩ => ⟨S80x12544, .f32⟩
  | .hbm, ⟨6, _⟩ => ⟨S_, .f32⟩
  | .hbm, ⟨7, _⟩ => ⟨S80, .f32⟩
  | .hbm, ⟨8, _⟩ => ⟨S80x1, .f32⟩
  | .hbm, ⟨9, _⟩ => ⟨S80x1, .f32⟩
  | .hbm, ⟨10, _⟩ => ⟨S_, .f32⟩
  | .hbm, ⟨11, _⟩ => ⟨S80x1, .f32⟩
  | .hbm, ⟨12, _⟩ => ⟨S80x1, .f32⟩
  | .hbm, ⟨13, _⟩ => ⟨S80x12544, .f32⟩
  | .hbm, ⟨14, _⟩ => ⟨S80x12544, .f32⟩
  | .hbm, ⟨15, _⟩ => ⟨S12544x80, .f32⟩
  | .hbm, ⟨16, _⟩ => ⟨S12544x80, .bf16⟩
  | .hbm, ⟨17, _⟩ => ⟨S12544x324, .f32⟩
  | .hbm, ⟨18, _⟩ => ⟨S12544x324, .bf16⟩
  | .hbm, ⟨19, _⟩ => ⟨S_, .i32⟩
  | .hbm, ⟨20, _⟩ => ⟨S_, .bf16⟩
  | .hbm, ⟨21, _⟩ => ⟨S12544x128, .bf16⟩
  | .hbm, ⟨22, _⟩ => ⟨S_, .i32⟩
  | .hbm, ⟨23, _⟩ => ⟨S_, .bf16⟩
  | .hbm, ⟨24, _⟩ => ⟨S12544x384, .bf16⟩
  | .hbm, ⟨25, _⟩ => ⟨S12544x512, .bf16⟩
  | .hbm, ⟨26, _⟩ => ⟨S_, .i32⟩
  | .hbm, ⟨27, _⟩ => ⟨S_, .f32⟩
  | .hbm, ⟨28, _⟩ => ⟨S384, .f32⟩
  | .hbm, ⟨29, _⟩ => ⟨S1x384, .f32⟩
  | .hbm, ⟨30, _⟩ => ⟨S4096x80, .f32⟩
  | .hbm, ⟨31, _⟩ => ⟨S4096x324, .f32⟩
  | .local _ .vmem, ⟨0, _⟩ => ⟨S128x12544, .f32⟩
  | .local _ .vmem, ⟨1, _⟩ => ⟨S128x12544, .f32⟩
  | .local _ .vmem, ⟨2, _⟩ => ⟨S12544x512, .bf16⟩
  | .local _ .vmem, ⟨3, _⟩ => ⟨S1x384, .f32⟩
  | .local _ .vmem, ⟨4, _⟩ => ⟨S128x80, .f32⟩
  | .local _ .vmem, ⟨5, _⟩ => ⟨S128x80, .f32⟩
  | .local _ .vmem, ⟨6, _⟩ => ⟨S128x324, .f32⟩
  | .local _ .vmem, ⟨7, _⟩ => ⟨S128x324, .f32⟩
  | _, _ => ⟨S4096x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_c_1 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call2_v0 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x324 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x256x7x7_S4096x12544 : S4096x256x7x7.ShapeCasts S4096x12544
  reducesTo_S80x12544_S80_d1 : S80x12544.ReducesTo [1] S80
  h_S_ : 0 < S_.numel
  bcast_S80_S80x1_0 : S80.BroadcastsInDim S80x1 (![0] : Fin 1 → Fin S80x1.rank)
  bcast_S_S80x1 : S_.BroadcastsInDim S80x1 (![] : Fin 0 → Fin S80x1.rank)
  bcast_S80x1_S80x12544_0_1 : S80x1.BroadcastsInDim S80x12544 (![0, 1] : Fin 2 → Fin S80x12544.rank)
  transposes_S80x12544_S12544x80_1_0 : S80x12544.Transposes [1, 0] S12544x80
  bitsLt_bf16_f32 : FTy.bits .bf16 < FTy.bits .f32
  transposes_S324x12544_S12544x324_1_0 : S324x12544.Transposes [1, 0] S12544x324
  pads_S12544x80_S12544x128_000_0480 : S12544x80.Pads (![0, 0] : Fin 2 → Nat) ![0, 48] ![0, 0] S12544x128
  pads_S12544x324_S12544x384_000_0600 : S12544x324.Pads (![0, 0] : Fin 2 → Nat) ![0, 60] ![0, 0] S12544x384
  concatenates_S12544x128_S12544x384_S12544x512_d1 : Shape.Concatenates [S12544x128, S12544x384] S12544x512 1
  pads_S324_S384_0600 : S324.Pads (![0] : Fin 1 → Nat) ![60] ![0] S384
  shapeCasts_S384_S1x384 : S384.ShapeCasts S1x384
  inb_S128x12544_S128x12544_0_0 : ∀ a, (![0, 0] : Fin 2 → Nat) a + S128x12544.size a ≤ S128x12544.size a
  h_S128x12544 : 0 < S128x12544.numel
  shapeCasts_S128x12544_S128x12544 : S128x12544.ShapeCasts S128x12544
  reduces_S128x12544_S128 : S128x12544.Reduces [1] S128
  shapeCasts_S128_S128x1 : S128.ShapeCasts S128x1
  inb_S12544x512_S12544x512_0_0 : ∀ a, (![0, 0] : Fin 2 → Nat) a + S12544x512.size a ≤ S12544x512.size a
  h_S12544x512 : 0 < S12544x512.numel
  shapeCasts_S12544x512_S12544x512 : S12544x512.ShapeCasts S12544x512
  slices_S128x512_o0_0_S128x80 : S128x512.Slices ![0, 0] S128x80
  broadcasts_S128x1_S128x80 : S128x1.Broadcasts S128x80
  inb_S128x80_S128x80_0_0 : ∀ a, (![0, 0] : Fin 2 → Nat) a + S128x80.size a ≤ S128x80.size a
  h_S128x80 : 0 < S128x80.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  slices_S128x512_o0_128_S128x324 : S128x512.Slices ![0, 128] S128x324
  slices_S1x384_o0_0_S1x324 : S1x384.Slices ![0, 0] S1x324
  broadcasts_S1x324_S128x324 : S1x324.Broadcasts S128x324
  inb_S128x324_S128x324_0_0 : ∀ a, (![0, 0] : Fin 2 → Nat) a + S128x324.size a ≤ S128x324.size a
  h_S128x324 : 0 < S128x324.numel
  dot_S128x12544_S12544x512_S128x512_1_0_0_1_n_n_wf : DotDims.WF S128x12544 S12544x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S4096x12544.size a
  hwx0_0 : ∀ i : grid0.Coords, EltTy.bits .f32 = 32 ∨ (Rect.block (s := S4096x12544) S128x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x512.size a ≤ S12544x512.size a
  hwx0_1 : ∀ i : grid0.Coords, EltTy.bits .bf16 = 32 ∨ (Rect.block (s := S12544x512) S12544x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x80.size a ≤ S4096x80.size a
  hwx0_3 : ∀ i : grid0.Coords, EltTy.bits .f32 = 32 ∨ (Rect.block (s := S4096x80) S128x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x324.size a ≤ S4096x324.size a
  hwx0_4 : ∀ i : grid0.Coords, EltTy.bits .f32 = 32 ∨ (Rect.block (s := S4096x324) S128x324.size (cc0_transform_4 i) (hinb0_4 i)).WholeWords (EltTy.packing .f32)

variable [Facts₀]

def dot_S128x12544_S12544x512_S128x512_1_0_0_1_n_n : DotDims S128x12544 S12544x512 S128x512 where
  lhsContracting := [1]
  rhsContracting := [0]
  lhsNonContracting := [0]
  rhsNonContracting := [1]
  lhsBatch := []
  rhsBatch := []
  wf := dot_S128x12544_S12544x512_S128x512_1_0_0_1_n_n_wf

abbrev win0_0 : Pipeline.Window sig grid0 :=
  Pipeline.Window.ofSpec (Memref.whole main_v0) S128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S12544x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S128x80.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S128x324.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256x7x7 : Shape := ⟨4, ![4096, 256, 7, 7]⟩
abbrev S80x12544 : Shape := ⟨2, ![80, 12544]⟩
abbrev S324x12544 : Shape := ⟨2, ![324, 12544]⟩
abbrev S324 : Shape := ⟨1, ![324]⟩
abbrev S4096x12544 : Shape := ⟨2, ![4096, 12544]⟩
abbrev S_ : Shape := ⟨0, ![]⟩
abbrev S4096 : Shape := ⟨1, ![4096]⟩
abbrev S4096x1 : Shape := ⟨2, ![4096, 1]⟩
abbrev S80 : Shape := ⟨1, ![80]⟩
abbrev S80x1 : Shape := ⟨2, ![80, 1]⟩
abbrev S4096x80 : Shape := ⟨2, ![4096, 80]⟩
abbrev S4096x324 : Shape := ⟨2, ![4096, 324]⟩
abbrev S1x324 : Shape := ⟨2, ![1, 324]⟩

abbrev nBuf : Space → Nat
  | .hbm => 63
  | .vmem => 0
  | .smem => 0
  | _ => 0

abbrev bufTy : (tb : Table) → Fin (tcTables nBuf tb) → BufTy
  | .hbm, ⟨0, _⟩ => ⟨S4096x256x7x7, .f32⟩
  | .hbm, ⟨1, _⟩ => ⟨S80x12544, .f32⟩
  | .hbm, ⟨2, _⟩ => ⟨S324x12544, .f32⟩
  | .hbm, ⟨3, _⟩ => ⟨S324, .f32⟩
  | .hbm, ⟨4, _⟩ => ⟨S4096x12544, .f32⟩
  | .hbm, ⟨5, _⟩ => ⟨S4096x12544, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x12544, .f32⟩
  | .hbm, ⟨14, _⟩ => ⟨S4096x12544, .f32⟩
  | .hbm, ⟨15, _⟩ => ⟨S80x12544, .f32⟩
  | .hbm, ⟨16, _⟩ => ⟨S_, .f32⟩
  | .hbm, ⟨17, _⟩ => ⟨S80, .f32⟩
  | .hbm, ⟨18, _⟩ => ⟨S80x1, .f32⟩
  | .hbm, ⟨19, _⟩ => ⟨S80x1, .f32⟩
  | .hbm, ⟨20, _⟩ => ⟨S_, .f32⟩
  | .hbm, ⟨21, _⟩ => ⟨S80x1, .f32⟩
  | .hbm, ⟨22, _⟩ => ⟨S80x1, .f32⟩
  | .hbm, ⟨23, _⟩ => ⟨S80x12544, .f32⟩
  | .hbm, ⟨24, _⟩ => ⟨S80x12544, .f32⟩
  | .hbm, ⟨25, _⟩ => ⟨S4096x80, .f32⟩
  | .hbm, ⟨26, _⟩ => ⟨S_, .f32⟩
  | .hbm, ⟨27, _⟩ => ⟨S4096x80, .f32⟩
  | .hbm, ⟨28, _⟩ => ⟨S4096x80, .f32⟩
  | .hbm, ⟨29, _⟩ => ⟨S_, .f32⟩
  | .hbm, ⟨30, _⟩ => ⟨S4096x80, .f32⟩
  | .hbm, ⟨31, _⟩ => ⟨S4096x80, .f32⟩
  | .hbm, ⟨32, _⟩ => ⟨S_, .f32⟩
  | .hbm, ⟨33, _⟩ => ⟨S4096x80, .f32⟩
  | .hbm, ⟨34, _⟩ => ⟨S4096x80, .f32⟩
  | .hbm, ⟨35, _⟩ => ⟨S4096x80, .f32⟩
  | .hbm, ⟨36, _⟩ => ⟨S_, .f32⟩
  | .hbm, ⟨37, _⟩ => ⟨S4096x80, .f32⟩
  | .hbm, ⟨38, _⟩ => ⟨S4096x80, .f32⟩
  | .hbm, ⟨39, _⟩ => ⟨S4096x80, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x80, .f32⟩
  | .hbm, ⟨44, _⟩ => ⟨S4096x80, .f32⟩
  | .hbm, ⟨45, _⟩ => ⟨S_, .f32⟩
  | .hbm, ⟨46, _⟩ => ⟨S4096x80, .f32⟩
  | .hbm, ⟨47, _⟩ => ⟨S4096x80, .f32⟩
  | .hbm, ⟨48, _⟩ => ⟨S_, .f32⟩
  | .hbm, ⟨49, _⟩ => ⟨S4096x80, .f32⟩
  | .hbm, ⟨50, _⟩ => ⟨S4096x80, .f32⟩
  | .hbm, ⟨51, _⟩ => ⟨S_, .f32⟩
  | .hbm, ⟨52, _⟩ => ⟨S4096x80, .f32⟩
  | .hbm, ⟨53, _⟩ => ⟨S4096x80, .f32⟩
  | .hbm, ⟨54, _⟩ => ⟨S_, .f32⟩
  | .hbm, ⟨55, _⟩ => ⟨S4096x80, .f32⟩
  | .hbm, ⟨56, _⟩ => ⟨S4096x80, .f32⟩
  | .hbm, ⟨57, _⟩ => ⟨S4096x80, .f32⟩
  | .hbm, ⟨58, _⟩ => ⟨S4096x80, .f32⟩
  | .hbm, ⟨59, _⟩ => ⟨S4096x324, .f32⟩
  | .hbm, ⟨60, _⟩ => ⟨S1x324, .f32⟩
  | .hbm, ⟨61, _⟩ => ⟨S4096x324, .f32⟩
  | .hbm, ⟨62, _⟩ => ⟨S4096x324, .f32⟩
  | _, _ => ⟨S4096x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_cst_8 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  shapeCasts_S4096x256x7x7_S4096x12544 : S4096x256x7x7.ShapeCasts S4096x12544
  reducesTo_S4096x12544_S4096_d1 : S4096x12544.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x12544_0_1 : S4096x1.BroadcastsInDim S4096x12544 (![0, 1] : Fin 2 → Fin S4096x12544.rank)
  reducesTo_S80x12544_S80_d1 : S80x12544.ReducesTo [1] S80
  bcast_S80_S80x1_0 : S80.BroadcastsInDim S80x1 (![0] : Fin 1 → Fin S80x1.rank)
  bcast_S_S80x1 : S_.BroadcastsInDim S80x1 (![] : Fin 0 → Fin S80x1.rank)
  bcast_S80x1_S80x12544_0_1 : S80x1.BroadcastsInDim S80x12544 (![0, 1] : Fin 2 → Fin S80x12544.rank)
  bcast_S_S4096x80 : S_.BroadcastsInDim S4096x80 (![] : Fin 0 → Fin S4096x80.rank)
  bcast_S324_S1x324_1 : S324.BroadcastsInDim S1x324 (![1] : Fin 1 → Fin S1x324.rank)
  bcast_S1x324_S4096x324_0_1 : S1x324.BroadcastsInDim S4096x324 (![0, 1] : Fin 2 → Fin S4096x324.rank)
  dot_S4096x12544_S80x12544_S4096x80_1_1_0_0_n_n_wf : DotDims.WF S4096x12544 S80x12544 S4096x80 [1] [1] [0] [0] [] []
  dot_S4096x12544_S324x12544_S4096x324_1_1_0_0_n_n_wf : DotDims.WF S4096x12544 S324x12544 S4096x324 [1] [1] [0] [0] [] []

variable [Facts₀]

def dot_S4096x12544_S80x12544_S4096x80_1_1_0_0_n_n : DotDims S4096x12544 S80x12544 S4096x80 where
  lhsContracting := [1]
  rhsContracting := [1]
  lhsNonContracting := [0]
  rhsNonContracting := [0]
  lhsBatch := []
  rhsBatch := []
  wf := dot_S4096x12544_S80x12544_S4096x80_1_1_0_0_n_n_wf
def dot_S4096x12544_S324x12544_S4096x324_1_1_0_0_n_n : DotDims S4096x12544 S324x12544 S4096x324 where
  lhsContracting := [1]
  rhsContracting := [1]
  lhsNonContracting := [0]
  rhsNonContracting := [0]
  lhsBatch := []
  rhsBatch := []
  wf := dot_S4096x12544_S324x12544_S4096x324_1_1_0_0_n_n_wf

class Facts : Prop extends Facts₀ where

variable [Facts]
-- ==== Proof.LibReciprocal.lean ====
/-
  General lemmas on the extended reals: a product with the reciprocal of a nonzero divisor is the quotient by that
  divisor, infinite divisors included; and a quantity clamped below by the float literal one is never zero.

  The quotient here is the idealized float quotient: for a divisor `y ≠ 0` it is `x * y⁻¹`, with `(±∞)⁻¹ = 0`.
  Hence `1 / y = y⁻¹` and `x * (1 / y) = x * y⁻¹ = x / y` for every `x`, finite or not: no finiteness of `x` or `y`
  is needed, only `y ≠ 0`.
-/
import Idealize.ShloMosaic.PureOps.Ideal

noncomputable section

namespace Reciprocal

open Idealize.ShloMosaic

/-- The float literal `1.0` (single precision) denotes the real number one. -/
theorem one_f32 : Ideal.ofBits .f32 0x3F800000#32 = 1 := by
  simp [Ideal.ofBits, Ideal.ieee, -EReal.coe_mul]; norm_num

/-- The reciprocal of a nonzero extended real is its inverse. -/
theorem div_one_left (y : EReal) (hy : y ≠ 0) : Ideal.div 1 y = y⁻¹ := by
  rw [Ideal.div, if_neg hy, one_mul]

/-- Multiplying by the reciprocal of a nonzero divisor is dividing by it, at the infinities too. -/
theorem mul_div_one (x y : EReal) (hy : y ≠ 0) : x * Ideal.div 1 y = Ideal.div x y := by
  rw [div_one_left y hy, Ideal.div, if_neg hy]

/-- A quantity clamped below by the literal one is at least one, hence not zero. -/
theorem max_one_ne_zero (d : EReal) : max d (Ideal.ofBits .f32 0x3F800000#32) ≠ 0 := by
  rw [one_f32]
  intro h
  have h1 : (1 : EReal) ≤ max d 1 := le_max_right d 1
  rw [h] at h1
  exact absurd h1 (not_le.mpr zero_lt_one)

/-- The mean by a clamped count, written either way: the sum times the reciprocal of the clamped count is the sum
    divided by the clamped count. -/
theorem mul_recip_clamped (x d : EReal) :
    x * Ideal.div (Ideal.ofBits .f32 0x3F800000#32) (max d (Ideal.ofBits .f32 0x3F800000#32))
      = Ideal.div x (max d (Ideal.ofBits .f32 0x3F800000#32)) := by
  have h := mul_div_one x _ (max_one_ne_zero d)
  rw [one_f32] at h ⊢
  exact h

end Reciprocal

end
-- ==== Proof.LibNormalizedDot.lean ====
/-
  General lemmas on the extended reals for kernels that normalize a row before or after contracting it.

  * A divisor that is at least a positive real (a norm clamped below by an epsilon) is not zero, and its inverse is a
    nonnegative extended real other than `⊤` (the inverse of `⊤` is `0`).
  * Such a factor distributes over a finite sum, so the reciprocal of the divisor moves across an inner product:
    `(1 / M) · Σₖ fₖ wₖ = Σₖ (fₖ / M) wₖ`, whatever the `fₖ`, `wₖ` are, infinities included. The quotient is the
    idealized float quotient, `x · y⁻¹` off zero.
  * For a number `s` clipped to `[0, 1]` and a positive real `ε`, with `a = max s ε` and `b = max (1 − s) ε`:
    `log a − log b = log (a / b)` (the inverse sigmoid written either way), `log` the idealized float logarithm.
-/
import Idealize.ShloMosaic.PureOps.Ideal
import Mathlib.Data.EReal.Inv

noncomputable section

open scoped BigOperators

namespace Cert.Lib.NormalizedDot

open Idealize.ShloMosaic

/-- An extended real that is at least a positive real is not zero, and its inverse is nonnegative and is not `⊤`. -/
theorem inv_facts {M : EReal} {ε : ℝ} (hε : 0 < ε) (hM : (ε : EReal) ≤ M) : M ≠ 0 ∧ 0 ≤ M⁻¹ ∧ M⁻¹ ≠ ⊤ := by
  have hpos : (0 : EReal) < M := lt_of_lt_of_le (by exact_mod_cast hε) hM
  refine ⟨hpos.ne', EReal.inv_nonneg_of_nonneg hpos.le, ?_⟩
  induction M using EReal.rec with
  | bot => exact absurd hpos (by simp)
  | coe r => rw [← EReal.coe_inv]; exact EReal.coe_ne_top _
  | top => rw [EReal.inv_top]; exact EReal.zero_ne_top

/-- A nonnegative factor other than `⊤` distributes over a finite sum of extended reals. -/
theorem sum_mul {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- `(1 / M) · Σₖ fₖ wₖ = Σₖ (fₖ / M) wₖ` for a divisor `M` that is at least a positive real. -/
theorem recip_mul_dot {K : Nat} {M : EReal} {ε : ℝ} (hε : 0 < ε) (hM : (ε : EReal) ≤ M) (f w : Fin K → EReal) :
    Ideal.div 1 M * ∑ k, f k * w k = ∑ k, Ideal.div (f k) M * w k := by
  obtain ⟨h0, hn, ht⟩ := inv_facts hε hM
  rw [Ideal.div, if_neg h0, one_mul, mul_comm, sum_mul _ _ _ hn ht]
  refine Finset.sum_congr rfl fun k _ => ?_
  rw [Ideal.div, if_neg h0, mul_right_comm]

/-- For `s = min 1 (max 0 e)` (a real in `[0, 1]`) and a positive real `ε`, with `a = max s ε` and `b = max (1 − s) ε`
    (positive reals): `log a − log b = log (a / b)`. -/
theorem log_sub_log (e : EReal) {ε : ℝ} (hε : 0 < ε) :
    Ideal.log (max (min 1 (max 0 e)) ε) - Ideal.log (max (1 - min 1 (max 0 e)) ε)
      = Ideal.log (Ideal.div (max (min 1 (max 0 e)) ε) (max (1 - min 1 (max 0 e)) ε)) := by
  have h0 : (0 : EReal) ≤ min 1 (max 0 e) := le_min zero_le_one (le_max_left _ _)
  have h1 : min 1 (max 0 e) ≤ (1 : EReal) := min_le_left _ _
  generalize min 1 (max 0 e) = s at h0 h1
  lift s to ℝ using ⟨ne_top_of_le_ne_top (EReal.coe_ne_top 1) h1, ne_bot_of_le_ne_bot (EReal.coe_ne_bot 0) h0⟩
  have ea : max (s : EReal) (ε : EReal) = ((max s ε : ℝ) : EReal) :=
    (EReal.coe_strictMono.monotone.map_max).symm
  have eb : max ((1 : EReal) - (s : EReal)) (ε : EReal) = ((max (1 - s) ε : ℝ) : EReal) := by
    rw [EReal.coe_strictMono.monotone.map_max, EReal.coe_sub, EReal.coe_one]
  rw [ea, eb]
  have ha : 0 < max s ε := lt_max_of_lt_right hε
  have hb : 0 < max (1 - s) ε := lt_max_of_lt_right hε
  generalize max s ε = a at ha
  generalize max (1 - s) ε = b at hb
  have hab : 0 < a * (1 / b) := by positivity
  rw [Ideal.div_coe hb.ne', ← EReal.coe_mul, Ideal.log_coe, Ideal.log_coe, Ideal.log_coe, if_neg (not_le.2 ha),
    if_neg (not_le.2 hb), if_neg (not_le.2 hab), ← EReal.coe_sub]
  congr 1
  rw [one_div, ← div_eq_mul_inv, Real.log_div ha.ne' hb.ne']

end Cert.Lib.NormalizedDot

end
-- ==== Proof.Algebra.lean ====
/-
  The two laws on the extended reals that join the kernel's arithmetic to the reference's.

  Cosine. The kernel scales the whole inner product of a feature row with a weight row by the reciprocal of the
  row's clamped norm, `(1 / M) · Σₖ fₖ wₖ`; the reference normalizes the feature row first, `Σₖ (fₖ / M) wₖ`.
  The clamped norm `M = max (√·) ε` is at least the positive real `ε`, so it is not zero and its inverse is a
  nonnegative extended real other than `⊤` (`⊤⁻¹ = 0`). Such a factor distributes over a finite sum of extended reals,
  so the two are equal for every row, finite or not.

  Inverse sigmoid. Both programs clip a score `e` to `s = min 1 (max 0 e)`, a real number in `[0, 1]`, and clamp
  `s` and `1 − s` below by a positive real `ε`; the kernel then takes `log a − log b`, the reference `log (a / b)`.
  For positive reals `a`, `b` these are the same number.
-/
import Idealize.ShloMosaic.PureOps.Ideal
import Idealize.ShloMosaic.PureOps.Ideal.Laws
import proofs.«111516_j15625091022925_2_alg».proof.Proof.LibReciprocal
import proofs.«111516_j15625091022925_2_alg».proof.Proof.LibNormalizedDot

noncomputable section

open scoped BigOperators

namespace Retrieval

open Idealize.ShloMosaic

/-! ## The float literals -/

/-- The literal `1e-12` (single precision) denotes a positive real. -/
theorem eps12_pos : ∃ r : ℝ, 0 < r ∧ Ideal.ofBits .f32 0x2B8CBCCC#32 = (r : EReal) := by
  refine ⟨_, ?_, by simp [Ideal.ofBits, Ideal.ieee, -EReal.coe_mul]; rfl⟩
  positivity

/-- The literal `1e-5` (single precision) denotes a positive real. -/
theorem eps5_pos : ∃ r : ℝ, 0 < r ∧ Ideal.ofBits .f32 0x3727C5AC#32 = (r : EReal) := by
  refine ⟨_, ?_, by simp [Ideal.ofBits, Ideal.ieee, -EReal.coe_mul]; rfl⟩
  positivity

/-! ## The cosine: a clamped norm's reciprocal moves across the inner product -/

/-- `(1 / M) · Σₖ fₖ wₖ = Σₖ (fₖ / M) wₖ` with the float literal `1.0` as the numerator, for a divisor `M` that is at
    least a positive real: the inverse of `M` is a nonnegative factor other than `⊤`, which distributes over the sum. -/
theorem scale_sum {K : Nat} {M : EReal} {ε : ℝ} (hε : 0 < ε) (hM : (ε : EReal) ≤ M) (f w : Fin K → EReal) :
    Ideal.div (Ideal.ofBits .f32 0x3F800000#32) M * ∑ k, f k * w k = ∑ k, Ideal.div (f k) M * w k := by
  rw [Reciprocal.one_f32]
  exact Cert.Lib.NormalizedDot.recip_mul_dot hε hM f w

/-- The clamped norm of a row: the square root of the row's sum of squares, clamped below by the literal `1e-12`. -/
def clampNorm (ss : EReal) : EReal := max (Ideal.sqrt ss) (Ideal.ofBits .f32 0x2B8CBCCC#32)

/-- The kernel's cosine, from a feature row's sum of squares and its inner product with a weight row. -/
def cosK (ss dot : EReal) : EReal := Ideal.div (Ideal.ofBits .f32 0x3F800000#32) (clampNorm ss) * dot

/-- The kernel's cosine is the inner product of the normalized feature row with the weight row. -/
theorem cosK_eq {K : Nat} (ss : EReal) (f w : Fin K → EReal) :
    cosK ss (∑ k, f k * w k) = ∑ k, Ideal.div (f k) (clampNorm ss) * w k := by
  obtain ⟨ε, hε, e⟩ := eps12_pos
  exact scale_sum hε (by unfold clampNorm; rw [e]; exact le_max_right _ _) f w

/-! ## The inverse sigmoid: a difference of logarithms against the logarithm of a quotient -/

/-- The kernel's score from a cosine `c`: `d² = max (2 − 2c) 0`, `e = exp ((0 − d²) / 0.5)`, `s` its clip to `[0, 1]`,
    and `log (max s ε) − log (max (1 − s) ε)`. -/
def scoreK (c : EReal) : EReal :=
  Ideal.log (max (min (Ideal.ofBits .f32 0x3F800000#32) (max (Ideal.ofBits .f32 0x00000000#32)
      (Ideal.exp (Ideal.div (Ideal.ofBits .f32 0x00000000#32 - max (Ideal.ofBits .f32 0x40000000#32 - Ideal.ofBits .f32 0x40000000#32 * c) (Ideal.ofBits .f32 0x00000000#32)) (Ideal.ofBits .f32 0x3F000000#32)))))
    (Ideal.ofBits .f32 0x3727C5AC#32))
  - Ideal.log (max (Ideal.ofBits .f32 0x3F800000#32 - min (Ideal.ofBits .f32 0x3F800000#32) (max (Ideal.ofBits .f32 0x00000000#32)
      (Ideal.exp (Ideal.div (Ideal.ofBits .f32 0x00000000#32 - max (Ideal.ofBits .f32 0x40000000#32 - Ideal.ofBits .f32 0x40000000#32 * c) (Ideal.ofBits .f32 0x00000000#32)) (Ideal.ofBits .f32 0x3F000000#32)))))
    (Ideal.ofBits .f32 0x3727C5AC#32))

/-- The reference's score from a cosine `c`: the same `d²`, `e = exp ((−d²) / 0.5)`, the same clip `s`, and
    `log (max s ε / max (1 − s) ε)`. -/
def scoreR (c : EReal) : EReal :=
  Ideal.log (Ideal.div
    (max (min (Ideal.ofBits .f32 0x3F800000#32) (max (Ideal.ofBits .f32 0x00000000#32)
      (Ideal.exp (Ideal.div (-(max (Ideal.ofBits .f32 0x40000000#32 - Ideal.ofBits .f32 0x40000000#32 * c) (Ideal.ofBits .f32 0x00000000#32))) (Ideal.ofBits .f32 0x3F000000#32)))))
      (Ideal.ofBits .f32 0x3727C5AC#32))
    (max (Ideal.ofBits .f32 0x3F800000#32 - min (Ideal.ofBits .f32 0x3F800000#32) (max (Ideal.ofBits .f32 0x00000000#32)
      (Ideal.exp (Ideal.div (-(max (Ideal.ofBits .f32 0x40000000#32 - Ideal.ofBits .f32 0x40000000#32 * c) (Ideal.ofBits .f32 0x00000000#32))) (Ideal.ofBits .f32 0x3F000000#32)))))
      (Ideal.ofBits .f32 0x3727C5AC#32)))

/-- The two scores agree at every cosine, finite or not: `0 − x = −x`, and the law of logarithms for the two positive reals. -/
theorem scoreK_eq_scoreR (c : EReal) : scoreK c = scoreR c := by
  obtain ⟨ε, hε, e⟩ := eps5_pos
  unfold scoreK scoreR
  rw [Reciprocal.one_f32, Ideal.ofBits_zero_f32, zero_sub, e]
  exact Cert.Lib.NormalizedDot.log_sub_log _ hε

end Retrieval

end
-- ==== Proof.Spec.lean ====
/-
  What the two programs compute, index by index, as functions of the flattened feature matrix `X` (4096 rows of
  12544 features), the class weights `W` (80 rows), the regression weights `W2` (324 rows) and the regression bias.

  Classification score of sample `b` against class `c`: both rows are divided by their clamped norms, the cosine is
  their inner product, and the score is the inverse sigmoid of `exp (−d² / 0.5)`, `d² = max (2 − 2 cos) 0`.
  Box regression of sample `b`, output `q`: the inner product of the feature row with weight row `q`, plus the bias.
-/
import Idealize.ShloMosaic.Lib.ValueIdx
import proofs.«111516_j15625091022925_2_alg».proof.Proof.Algebra

noncomputable section

open scoped BigOperators

namespace Retrieval

open Idealize.ShloMosaic Idealize.ShloMosaic.ValueIdx

/-- The sum of squares of row `r` of a matrix with 12544 columns. -/
def rowSS {R : Nat} (A : (⟨2, ![R, 12544]⟩ : Shape).Idx → EReal) (r : Fin R) : EReal :=
  ∑ k : Fin 12544, A (ix2 r k) * A (ix2 r k)

/-- The cosine of feature row `b` and class-weight row `c`: the inner product of the two rows, each divided by its
    clamped norm. -/
def cosine (X : (⟨2, ![4096, 12544]⟩ : Shape).Idx → EReal) (W : (⟨2, ![80, 12544]⟩ : Shape).Idx → EReal)
    (b : Fin 4096) (c : Fin 80) : EReal :=
  ∑ k : Fin 12544, Ideal.div (X (ix2 b k)) (clampNorm (rowSS X b)) * Ideal.div (W (ix2 c k)) (clampNorm (rowSS W c))

/-- The classification scores, as one function of the feature matrix and the class weights. -/
def clsScores (X : (⟨2, ![4096, 12544]⟩ : Shape).Idx → EReal) (W : (⟨2, ![80, 12544]⟩ : Shape).Idx → EReal) :
    (⟨2, ![4096, 80]⟩ : Shape).Idx → EReal :=
  fun i => scoreR (cosine X W (i 0) (i 1))

/-- The box regression, as one function of the feature matrix, the regression weights and the bias. -/
def boxes (X : (⟨2, ![4096, 12544]⟩ : Shape).Idx → EReal) (W2 : (⟨2, ![324, 12544]⟩ : Shape).Idx → EReal)
    (B : (⟨1, ![324]⟩ : Shape).Idx → EReal) : (⟨2, ![4096, 324]⟩ : Shape).Idx → EReal :=
  fun i => (∑ k : Fin 12544, X (ix2 (i 0) k) * W2 (ix2 (i 1) k)) + B (ix1 (i 1))

end Retrieval

end
-- ==== Proof.RefSide.lean ====
/-
  The reference's two results are the specification's functions of the flattened feature matrix and the weights.
  The reference normalizes both operands row by row, contracts them, and applies the score's pointwise tail; each
  operation is read at an index, and the composed indices are the rows and columns the specification names.
-/
import proofs.«111516_j15625091022925_2_alg».proof.Proof.Gen.ReferenceIdeal.Read
import proofs.«111516_j15625091022925_2_alg».proof.Proof.Spec

noncomputable section

open scoped BigOperators

namespace Retrieval.Ref

open Idealize.ShloMosaic Idealize.ShloMosaic.ValueIdx Cert.ReferenceIdeal Cert.ReferenceIdeal.Read Retrieval

/-- The feature rows' clamped norms, broadcast along the features: at `(b, k)` the clamped norm of row `b`. -/
theorem norm_rows (x0 : S4096x256x7x7.Idx → EReal) (b : Fin 4096) (k : Fin 12544) :
    val_main_v7 (F := Ideal) x0 (ix2 b k) = clampNorm (rowSS (val_main_v0 (F := Ideal) x0) b) := by
  simp only [val_main_v7_apply, val_main_v6_apply, val_main_v4_apply, val_main_v5_apply, val_main_cst_0_apply,
    val_main_v3_apply, val_main_v2_apply, val_main_cst_apply, val_main_v1_apply]
  unfold clampNorm rowSS
  simp only [Ideal.ofBits_def, Ideal.hostUnary_sqrt_def, Ideal.maximumf_def, Ideal.mulf_def, Ideal.ofBits_zero_f32, zero_add]
  rfl

/-- The class-weight rows' clamped norms, broadcast along the features: at `(c, k)` the clamped norm of row `c`. -/
theorem norm_weights (x1 : S80x12544.Idx → EReal) (c : Fin 80) (k : Fin 12544) :
    val_main_v15 (F := Ideal) x1 (ix2 c k) = clampNorm (rowSS x1 c) := by
  simp only [val_main_v15_apply, val_main_v14_apply, val_main_v12_apply, val_main_v13_apply, val_main_cst_2_apply,
    val_main_v11_apply, val_main_v10_apply, val_main_cst_1_apply, val_main_v9_apply]
  unfold clampNorm rowSS
  have e : ∀ x : Fin 12544, idx_main_v10 (idx_main_v11 (idx_main_v15 (ix2 c k))) x = ix2 c x := fun x =>
    funext fun a => Fin.ext (by match a with | ⟨0, _⟩ => rfl | ⟨1, _⟩ => rfl)
  simp only [Ideal.ofBits_def, Ideal.hostUnary_sqrt_def, Ideal.maximumf_def, Ideal.mulf_def, Ideal.ofBits_zero_f32, zero_add, e]

/-- The reference's normalized class weights: at `(c, k)` the weight divided by its row's clamped norm. -/
theorem weights_normalized (x1 : S80x12544.Idx → EReal) (c : Fin 80) (k : Fin 12544) :
    val_main_v16 (F := Ideal) x1 (ix2 c k) = Ideal.div (x1 (ix2 c k)) (clampNorm (rowSS x1 c)) := by
  rw [val_main_v16_apply, norm_weights]
  rfl

/-- The reference's contraction of the normalized rows is the specification's cosine. -/
theorem cosine_eq (x0 : S4096x256x7x7.Idx → EReal) (x1 : S80x12544.Idx → EReal) (b : Fin 4096) (c : Fin 80) :
    val_main_v17 (F := Ideal) x0 x1 (ix2 b c) = cosine (val_main_v0 (F := Ideal) x0) x1 b c := by
  rw [val_main_v17_apply]
  unfold cosine
  refine Finset.sum_congr rfl fun k _ => ?_
  have el : lidx_main_v17 (ix2 b c) k = ix2 b k := funext fun a => Fin.ext (by match a with | ⟨0, _⟩ => rfl | ⟨1, _⟩ => rfl)
  have er : ridx_main_v17 (ix2 b c) k = ix2 c k := funext fun a => Fin.ext (by match a with | ⟨0, _⟩ => rfl | ⟨1, _⟩ => rfl)
  rw [el, er, val_main_v8_apply, weights_normalized, norm_rows]
  rfl

/-- The reference's first result is the specification's classification scores. -/
theorem cls_eq (x0 : S4096x256x7x7.Idx → EReal) (x1 : S80x12544.Idx → EReal) :
    val_main_v36 (F := Ideal) x0 x1 = clsScores (val_main_v0 (F := Ideal) x0) x1 := by
  funext i
  obtain ⟨b, c, rfl⟩ : ∃ (b : Fin 4096) (c : Fin 80), i = ix2 b c := ⟨i 0, i 1, eq_ix2 i⟩
  show _ = scoreR (cosine (val_main_v0 (F := Ideal) x0) x1 b c)
  rw [← cosine_eq]
  simp only [val_main_v36_apply, val_main_v35_apply, val_main_v30_apply, val_main_v34_apply, val_main_v32_apply,
    val_main_v28_apply, val_main_call0_v4_apply, val_main_call0_v3_apply, val_main_cst_8_apply, val_main_call0_v2_apply,
    val_main_call0_v1_apply, val_main_call0_v0_apply, val_main_cst_7_apply, val_main_v27_apply, val_main_v26_apply,
    val_main_v24_apply, val_main_v23_apply, val_main_v21_apply, val_main_v19_apply, val_main_v18_apply,
    val_main_v20_apply, val_main_v22_apply, val_main_v25_apply, val_main_v29_apply, val_main_v31_apply,
    val_main_v33_apply, val_main_cst_3_apply, val_main_cst_4_apply, val_main_cst_5_apply, val_main_cst_6_apply,
    val_main_cst_9_apply, val_main_cst_10_apply, val_main_cst_11_apply]
  rfl

/-- The reference's second result is the specification's box regression. -/
theorem boxes_eq (x0 : S4096x256x7x7.Idx → EReal) (x2 : S324x12544.Idx → EReal) (x3 : S324.Idx → EReal) :
    val_main_v40 (F := Ideal) x0 x2 x3 = boxes (val_main_v0 (F := Ideal) x0) x2 x3 := by
  funext i
  obtain ⟨b, q, rfl⟩ : ∃ (b : Fin 4096) (q : Fin 324), i = ix2 b q := ⟨i 0, i 1, eq_ix2 i⟩
  rw [val_main_v40_apply, val_main_v37_apply, val_main_v39_apply, val_main_v38_apply]
  show _ = (∑ k : Fin 12544, val_main_v0 (F := Ideal) x0 (ix2 b k) * x2 (ix2 q k)) + x3 (ix1 q)
  refine congrArg₂ (fun u v : EReal => u + v) (Finset.sum_congr rfl fun k _ => ?_) ?_
  · have el : lidx_main_v37 (ix2 b q) k = ix2 b k := funext fun a => Fin.ext (by match a with | ⟨0, _⟩ => rfl | ⟨1, _⟩ => rfl)
    have er : ridx_main_v37 (ix2 b q) k = ix2 q k := funext fun a => Fin.ext (by match a with | ⟨0, _⟩ => rfl | ⟨1, _⟩ => rfl)
    rw [el, er]
  · exact congrArg x3 (funext fun a => Fin.ext (by match a with | ⟨0, _⟩ => rfl))

end Retrieval.Ref

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Payload.lean ====
/-
  The kernel body's arithmetic at one index of a block.

  One block is 128 feature rows. The body forms the rows' sums of squares, multiplies the rows (all 12544 features)
  by the fused weight matrix (12544 × 512: the 80 normalized class-weight rows in columns 0–79, the 324 regression
  weight rows in columns 128–451), scales columns 0–79 of the product by the reciprocal of the row's clamped norm and
  applies the score's pointwise tail; to columns 128–451 it adds the bias row.
-/
import proofs.«111516_j15625091022925_2_alg».proof.Proof.Gen.KernelIdeal.Value
import Idealize.ShloMosaic.Lib.ValueIdx
import Idealize.ShloMosaic.Lib.Pipeline.Value
import Idealize.ShloMosaic.PureOps.Ideal.Laws
import proofs.«111516_j15625091022925_2_alg».proof.Proof.LibPlainDot
import proofs.«111516_j15625091022925_2_alg».proof.Proof.Spec

noncomputable section

open scoped BigOperators

namespace Retrieval.Ker

open Idealize.ShloMosaic Idealize.ShloMosaic.ValueIdx Cert.KernelIdeal Cert.KernelIdeal.Gen Retrieval

/-- The body's product at block row `p`, fused column `n`: the sum over the 12544 features of the feature row's
    entry times the fused weight's. (The change of float format of the left operand is the identity at the exact
    values, and the product accumulates into zero.) -/
theorem product_apply (P0 : FVec Ideal S128x12544 .f32) (P1 : FVec Ideal S12544x512 .bf16) (p : Fin 128) (n : Fin 512) :
    k0_pay3 (F := Ideal) P0 P1 (ix2 p n) = ∑ k : Fin 12544, P0 (ix2 p k) * P1 (ix2 k n) := by
  unfold k0_pay3 k0_pay2
  refine (Cert.Lib.PlainDot.matmul_zero_apply dot_S128x12544_S12544x512_S128x512_1_0_0_1_n_n rfl rfl
    (fun j q => by
      unfold DotDims.lhsIdx
      rw [dif_neg (show ¬(0 : Fin S128x12544.rank) ∈ dot_S128x12544_S12544x512_S128x512_1_0_0_1_n_n.lhsBatch by decide),
        dif_pos (show (0 : Fin S128x12544.rank) ∈ dot_S128x12544_S12544x512_S128x512_1_0_0_1_n_n.lhsNonContracting by decide)]
      rfl)
    (fun j q => dot_S128x12544_S12544x512_S128x512_1_0_0_1_n_n.lhsIdx_val_of_single rfl j q)
    (fun j q => dot_S128x12544_S12544x512_S128x512_1_0_0_1_n_n.rhsIdx_val_of_single rfl j q)
    (fun j q => by
      unfold DotDims.rhsIdx
      rw [dif_neg (show ¬(1 : Fin S12544x512.rank) ∈ dot_S128x12544_S12544x512_S128x512_1_0_0_1_n_n.rhsBatch by decide),
        dif_pos (show (1 : Fin S12544x512.rank) ∈ dot_S128x12544_S12544x512_S128x512_1_0_0_1_n_n.rhsNonContracting by decide)]
      rfl)
    none _ _ (ix2 p n)).trans ?_
  refine Finset.sum_congr rfl fun k _ => ?_
  rw [shapeCast_self, shapeCast_self]
  rfl

/-- The body's row sums of squares at block row `p`. -/
theorem sumsq_apply (P0 : FVec Ideal S128x12544 .f32) (p : Fin 128)
    (hacc : (0x00000000#32 : BitVec 32) = 0x00000000#32) :
    multiReduction (F := Ideal) .add [1] S128 (mulf (shapeCast S128x12544 P0 Facts₀.shapeCasts_S128x12544_S128x12544)
        (shapeCast S128x12544 P0 Facts₀.shapeCasts_S128x12544_S128x12544)) 0x00000000#32 Facts₀.reduces_S128x12544_S128 (.inl rfl) hacc (ix1 p)
      = rowSS (R := 128) P0 p := by
  refine (Ideal.multiReduction_add_single _ 0x00000000#32 Facts₀.reduces_S128x12544_S128 (.inl rfl) hacc (ix1 p)).trans ?_
  unfold rowSS
  refine Finset.sum_congr rfl fun k _ => ?_
  rw [shapeCast_self]
  have e : Facts₀.reduces_S128x12544_S128.lift (ix1 p) k = ix2 p k :=
    funext fun a => Fin.ext (by match a with | ⟨0, _⟩ => rfl | ⟨1, _⟩ => rfl)
  rw [e]
  rfl

/-- Column `j < 80` of the fused product. -/
abbrev clsCol (j : Fin 80) : Fin 512 := ⟨j.val, by omega⟩
/-- Column `128 + q` of the fused product, `q < 324`. -/
abbrev boxCol (q : Fin 324) : Fin 512 := ⟨q.val + 128, by omega⟩

/-- What the body leaves in the score block at `(p, j)`: the kernel's score of the kernel's cosine — the reciprocal
    of the row's clamped norm times the row's inner product with fused column `j`. -/
theorem score_block_apply (P0 : FVec Ideal S128x12544 .f32) (P1 : FVec Ideal S12544x512 .bf16) (p : Fin 128) (j : Fin 80) :
    Cert.KernelIdeal.Value.E3 (F := Ideal) P0 P1 (ix2 p j)
      = scoreK (cosK (rowSS (R := 128) P0 p) (∑ k : Fin 12544, P0 (ix2 p k) * P1 (ix2 k (clsCol j)))) := by
  have e0 : Cert.KernelIdeal.Value.ix3_0 (ix2 p j) = ix1 p := funext fun a => Fin.ext (by match a with | ⟨0, _⟩ => rfl)
  have e1 : Cert.KernelIdeal.Value.ix3_1 (ix2 p j) = ix2 p (clsCol j) :=
    funext fun a => Fin.ext (by match a with | ⟨0, _⟩ => rfl | ⟨1, _⟩ => rfl)
  have e2 : Cert.KernelIdeal.Value.ix3_2 (ix2 p j) = ix1 p := funext fun a => Fin.ext (by match a with | ⟨0, _⟩ => rfl)
  have e3 : Cert.KernelIdeal.Value.ix3_3 (ix2 p j) = ix2 p (clsCol j) :=
    funext fun a => Fin.ext (by match a with | ⟨0, _⟩ => rfl | ⟨1, _⟩ => rfl)
  dsimp only [Cert.KernelIdeal.Value.E3]
  rw [e0, e1, e2, e3, sumsq_apply P0 p rfl, product_apply P0 P1 p (clsCol j)]
  rfl

/-- What the body leaves in the box block at `(p, q)`: the row's inner product with fused column `128 + q`, plus
    the bias row's entry `q`. -/
theorem box_block_apply (P0 : FVec Ideal S128x12544 .f32) (P1 : FVec Ideal S12544x512 .bf16) (P2 : FVec Ideal S1x384 .f32)
    (p : Fin 128) (q : Fin 324) :
    Cert.KernelIdeal.Value.E4 (F := Ideal) P0 P1 P2 (ix2 p q)
      = (∑ k : Fin 12544, P0 (ix2 p k) * P1 (ix2 k (boxCol q))) + P2 (ix2 (0 : Fin 1) (⟨q.val, by omega⟩ : Fin 384)) := by
  have e0 : Cert.KernelIdeal.Value.ix4_0 (ix2 p q) = ix2 p (boxCol q) :=
    funext fun a => Fin.ext (by match a with | ⟨0, _⟩ => rfl | ⟨1, _⟩ => rfl)
  have e1 : Cert.KernelIdeal.Value.ix4_1 (ix2 p q) = ix2 (0 : Fin 1) (⟨q.val, by omega⟩ : Fin 384) :=
    funext fun a => Fin.ext (by match a with | ⟨0, _⟩ => rfl | ⟨1, _⟩ => rfl)
  dsimp only [Cert.KernelIdeal.Value.E4]
  rw [e0, e1, product_apply P0 P1 p (boxCol q)]
  rfl

end Retrieval.Ker

end
-- ==== Proof.Blocks.lean ====
/-
  From blocks to the whole arrays.

  Grid point `t` (of 32) stages rows `128 t … 128 t + 127` of the feature operand, the whole fused weight operand and
  the whole bias operand, and writes back rows `128 t … 128 t + 127` of the two results. What it writes back is the
  block, at those rows, of ONE function of the operands as launched; the 32 row blocks cover the results. Hence each
  result array ends holding that function.
-/
import proofs.«111516_j15625091022925_2_alg».proof.Proof.Gen.KernelIdeal.Value
import proofs.«111516_j15625091022925_2_alg».proof.Proof.Payload
import proofs.«111516_j15625091022925_2_alg».proof.Proof.Spec

noncomputable section

open scoped BigOperators

namespace Retrieval.Ker

open Idealize.ShloMosaic Idealize.ShloMosaic.ValueIdx Idealize.ShloMosaic.TcCoe Idealize.SL.Sem
open Cert.KernelIdeal Cert.KernelIdeal.Gen Retrieval
open Idealize.ShloMosaic.Pipeline (Dat)

/-- The kernel's scores as one function of the feature operand `X` and the fused weight operand `Wc`: at `(b, j)`
    the kernel's score of its cosine of feature row `b` with fused column `j`. -/
def scoresK (X : S4096x12544.Idx → EReal) (Wc : S12544x512.Idx → EReal) : S4096x80.Idx → EReal :=
  fun i => scoreK (cosK (rowSS (R := 4096) X (i 0)) (∑ k : Fin 12544, X (ix2 (i 0) k) * Wc (ix2 k (clsCol (i 1)))))

/-- The kernel's boxes as one function of the three operands: at `(b, q)` the inner product of feature row `b` with
    fused column `128 + q`, plus entry `q` of the bias row. -/
def boxesK (X : S4096x12544.Idx → EReal) (Wc : S12544x512.Idx → EReal) (Bc : S1x384.Idx → EReal) : S4096x324.Idx → EReal :=
  fun i => (∑ k : Fin 12544, X (ix2 (i 0) k) * Wc (ix2 k (boxCol (i 1))))
    + Bc (ix2 (0 : Fin 1) (⟨(i 1).val, by have := idx2_lt1 i; omega⟩ : Fin 384))

/-- One entry of a score block is the scores' function at the array index it is written to, when the staged feature
    block's row is the array's row and the staged weights are the operand. -/
theorem score_point (X : S4096x12544.Idx → EReal) (Wc : S12544x512.Idx → EReal)
    (P0 : FVec Ideal S128x12544 .f32) (P1 : FVec Ideal S12544x512 .bf16) (i : S4096x80.Idx) (p : Fin 128) (j : Fin 80)
    (h0 : ∀ k : Fin 12544, P0 (ix2 p k) = X (ix2 (i 0) k))
    (h1 : ∀ (k : Fin 12544) (n : Fin 512), P1 (ix2 k n) = Wc (ix2 k n))
    (hj : (i 1).val = j.val) :
    Cert.KernelIdeal.Value.E3 (F := Ideal) P0 P1 (ix2 p j) = scoresK X Wc i := by
  have ej : clsCol (i 1) = clsCol j := Fin.ext hj
  rw [score_block_apply]
  unfold scoresK rowSS
  rw [ej]
  simp only [h0, h1]

/-- One entry of a box block is the boxes' function at the array index it is written to, likewise. -/
theorem box_point (X : S4096x12544.Idx → EReal) (Wc : S12544x512.Idx → EReal) (Bc : S1x384.Idx → EReal)
    (P0 : FVec Ideal S128x12544 .f32) (P1 : FVec Ideal S12544x512 .bf16) (P2 : FVec Ideal S1x384 .f32)
    (i : S4096x324.Idx) (p : Fin 128) (q : Fin 324)
    (h0 : ∀ k : Fin 12544, P0 (ix2 p k) = X (ix2 (i 0) k))
    (h1 : ∀ (k : Fin 12544) (n : Fin 512), P1 (ix2 k n) = Wc (ix2 k n))
    (h2 : ∀ n : Fin 384, P2 (ix2 (0 : Fin 1) n) = Bc (ix2 (0 : Fin 1) n))
    (hq : (i 1).val = q.val) :
    Cert.KernelIdeal.Value.E4 (F := Ideal) P0 P1 P2 (ix2 p q) = boxesK X Wc Bc i := by
  have eq : boxCol (i 1) = boxCol q := Fin.ext (by show (i 1).val + 128 = q.val + 128; omega)
  have eb : (⟨(i 1).val, by have := idx2_lt1 i; omega⟩ : Fin 384) = ⟨q.val, by omega⟩ := Fin.ext hq
  rw [box_block_apply]
  unfold boxesK
  rw [eq, eb]
  simp only [h0, h1, h2]

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 grid points: the feature window and both result windows are at row
    block `t`, column block 0; the weight and bias windows are always at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the score array is block `t` of the scores' function of the operands as launched. -/
theorem score_flushed (c : Dev nD) (t : Fin cfg0.N) :
    (dats m 0 c).flushed 3 t
      = ((cfg0.win 3).blk t).view.read (Elt Ideal) (scoresK (V m c main_v0) (V m c main_v15)) := by
  show (cfg0.win 3).cut (grid0.coords t) ((dats m 0 c).after 3 t) = _
  rw [after0_3]
  unfold out0_3
  obtain ⟨a0, a1, b0, b1, c0, c1, d0, d1, e0, e1⟩ := index_maps t
  funext y
  obtain ⟨p, j, rfl⟩ : ∃ (p : Fin 128) (j : Fin 80), y = ix2 p j := ⟨y 0, y 1, eq_ix2 y⟩
  show View.canon ([⟨r0_2, k0_pay4 (F := Ideal) (View.ld (iblk m c 0 t) r0_0) (View.ld (iblk m c 1 t) r0_1)⟩] :
      List (View.Piece (Elt Ideal) S128x80 .f32)) (ix2 p j)
    = scoresK (V m c main_v0) (V m c main_v15) (((cfg0.win 3).blk t).view.emb (ix2 p j))
  rw [Cert.KernelIdeal.Value.canon3_eq]
  simp only [View.ld_unit_zero (S := S128x12544) zero_offsets, View.ld_unit_zero (S := S12544x512) zero_offsets]
  refine score_point (V m c main_v0) (V m c main_v15) _ _ _ p j ?_ ?_ ?_
  · intro k
    show V m c main_v0 (((cfg0.win 0).blk t).view.emb (ix2 p k)) = V m c main_v0 (ix2 ((((cfg0.win 3).blk t).view.emb (ix2 p j)) 0) k)
    refine congrArg (V m c main_v0) (funext fun a => Fin.ext ?_)
    match a with
    | ⟨0, _⟩ => show win0_0.index t (0 : Fin 2) * 128 + 1 * p.val = win0_3.index t (0 : Fin 2) * 128 + 1 * p.val; omega
    | ⟨1, _⟩ => show win0_0.index t (1 : Fin 2) * 12544 + 1 * k.val = k.val; omega
  · intro k n
    show V m c main_v15 (((cfg0.win 1).blk t).view.emb (ix2 k n)) = V m c main_v15 (ix2 k n)
    refine congrArg (V m c main_v15) (funext fun a => Fin.ext ?_)
    match a with
    | ⟨0, _⟩ => show win0_1.index t (0 : Fin 2) * 12544 + 1 * k.val = k.val; omega
    | ⟨1, _⟩ => show win0_1.index t (1 : Fin 2) * 512 + 1 * n.val = n.val; omega
  · show win0_3.index t (1 : Fin 2) * 80 + 1 * j.val = j.val
    omega

/-- What point `t` writes back to the box array is block `t` of the boxes' function of the operands as launched. -/
theorem box_flushed (c : Dev nD) (t : Fin cfg0.N) :
    (dats m 0 c).flushed 4 t
      = ((cfg0.win 4).blk t).view.read (Elt Ideal) (boxesK (V m c main_v0) (V m c main_v15) (V m c main_v17)) := by
  show (cfg0.win 4).cut (grid0.coords t) ((dats m 0 c).after 4 t) = _
  rw [after0_4]
  unfold out0_4
  obtain ⟨a0, a1, b0, b1, c0, c1, d0, d1, e0, e1⟩ := index_maps t
  funext y
  obtain ⟨p, q, rfl⟩ : ∃ (p : Fin 128) (q : Fin 324), y = ix2 p q := ⟨y 0, y 1, eq_ix2 y⟩
  show View.canon ([⟨r0_4, k0_pay1 (F := Ideal) (k0_pay3 (View.ld (iblk m c 0 t) r0_0) (View.ld (iblk m c 1 t) r0_1)) (View.ld (iblk m c 2 t) r0_3)⟩] :
      List (View.Piece (Elt Ideal) S128x324 .f32)) (ix2 p q)
    = boxesK (V m c main_v0) (V m c main_v15) (V m c main_v17) (((cfg0.win 4).blk t).view.emb (ix2 p q))
  rw [Cert.KernelIdeal.Value.canon4_eq]
  simp only [View.ld_unit_zero (S := S128x12544) zero_offsets, View.ld_unit_zero (S := S12544x512) zero_offsets,
    View.ld_unit_zero (S := S1x384) zero_offsets]
  refine box_point (V m c main_v0) (V m c main_v15) (V m c main_v17) _ _ _ _ p q ?_ ?_ ?_ ?_
  · intro k
    show V m c main_v0 (((cfg0.win 0).blk t).view.emb (ix2 p k)) = V m c main_v0 (ix2 ((((cfg0.win 4).blk t).view.emb (ix2 p q)) 0) k)
    refine congrArg (V m c main_v0) (funext fun a => Fin.ext ?_)
    match a with
    | ⟨0, _⟩ => show win0_0.index t (0 : Fin 2) * 128 + 1 * p.val = win0_4.index t (0 : Fin 2) * 128 + 1 * p.val; omega
    | ⟨1, _⟩ => show win0_0.index t (1 : Fin 2) * 12544 + 1 * k.val = k.val; omega
  · intro k n
    show V m c main_v15 (((cfg0.win 1).blk t).view.emb (ix2 k n)) = V m c main_v15 (ix2 k n)
    refine congrArg (V m c main_v15) (funext fun a => Fin.ext ?_)
    match a with
    | ⟨0, _⟩ => show win0_1.index t (0 : Fin 2) * 12544 + 1 * k.val = k.val; omega
    | ⟨1, _⟩ => show win0_1.index t (1 : Fin 2) * 512 + 1 * n.val = n.val; omega
  · intro n
    show V m c main_v17 (((cfg0.win 2).blk t).view.emb (ix2 (0 : Fin 1) n)) = V m c main_v17 (ix2 (0 : Fin 1) n)
    refine congrArg (V m c main_v17) (funext fun a => Fin.ext ?_)
    match a with
    | ⟨0, _⟩ => show win0_2.index t (0 : Fin 2) * 1 + 1 * 0 = 0; omega
    | ⟨1, _⟩ => show win0_2.index t (1 : Fin 2) * 384 + 1 * n.val = n.val; omega
  · show win0_4.index t (1 : Fin 2) * 324 + 1 * q.val = q.val
    omega

/-- An index of the score array is in point `t`'s block iff each coordinate is in the block's range on its axis. -/
theorem score_mem_blk (t : Fin cfg0.N) (i : S4096x80.Idx) :
    i ∈ ((cfg0.win 3).blk t).view.set ↔ ∀ a : Fin 2, win0_3.index t a * S128x80.size a ≤ (i a).val ∧ (i a).val < win0_3.index t a * S128x80.size a + S128x80.size a := by
  show i ∈ ((View.whole main_v18_0).slice (win0_3.rect t)).set ↔ _
  rw [View.set_slice_whole, Rect.mem_set_unit]
  exact Iff.rfl

/-- The same for the box array. -/
theorem box_mem_blk (t : Fin cfg0.N) (i : S4096x324.Idx) :
    i ∈ ((cfg0.win 4).blk t).view.set ↔ ∀ a : Fin 2, win0_4.index t a * S128x324.size a ≤ (i a).val ∧ (i a).val < win0_4.index t a * S128x324.size a + S128x324.size a := by
  show i ∈ ((View.whole main_v18_1).slice (win0_4.rect t)).set ↔ _
  rw [View.set_slice_whole, Rect.mem_set_unit]
  exact Iff.rfl

/-- The score array after the run: row `r` is covered by point `r / 128`. -/
theorem score_final (c : Dev nD) :
    (dats m 0 c).arrAt 3 cfg0.N = scoresK (V m c main_v0) (V m c main_v15) :=
  (dats m 0 c).arrAt_eq_of_cover 3 (scoresK (V m c main_v0) (V m c main_v15)) (fun t _ => score_flushed m c t) fun i => by
    have hN : grid0.N = 32 := N_0
    have hi0 : (i 0).val < 4096 := idx2_lt0 i
    have hi1 : (i 1).val < 80 := idx2_lt1 i
    let t : Fin cfg0.N := ⟨(i 0).val / 128, by show (i 0).val / 128 < grid0.N; omega⟩
    obtain ⟨a0, a1, b0, b1, c0, c1, d0, d1, e0, e1⟩ := index_maps t
    have ht : t.val = (i 0).val / 128 := rfl
    refine ⟨t, flush0_3 t, ?_⟩
    rw [score_mem_blk]
    intro a
    match a with
    | ⟨0, _⟩ => show win0_3.index t (0 : Fin 2) * 128 ≤ (i 0).val ∧ (i 0).val < win0_3.index t (0 : Fin 2) * 128 + 128; omega
    | ⟨1, _⟩ => show win0_3.index t (1 : Fin 2) * 80 ≤ (i 1).val ∧ (i 1).val < win0_3.index t (1 : Fin 2) * 80 + 80; omega

/-- The box array after the run, likewise. -/
theorem box_final (c : Dev nD) :
    (dats m 0 c).arrAt 4 cfg0.N = boxesK (V m c main_v0) (V m c main_v15) (V m c main_v17) :=
  (dats m 0 c).arrAt_eq_of_cover 4 (boxesK (V m c main_v0) (V m c main_v15) (V m c main_v17)) (fun t _ => box_flushed m c t) fun i => by
    have hN : grid0.N = 32 := N_0
    have hi0 : (i 0).val < 4096 := idx2_lt0 i
    have hi1 : (i 1).val < 324 := idx2_lt1 i
    let t : Fin cfg0.N := ⟨(i 0).val / 128, by show (i 0).val / 128 < grid0.N; omega⟩
    obtain ⟨a0, a1, b0, b1, c0, c1, d0, d1, e0, e1⟩ := index_maps t
    have ht : t.val = (i 0).val / 128 := rfl
    refine ⟨t, flush0_4 t, ?_⟩
    rw [box_mem_blk]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 324 ≤ (i 1).val ∧ (i 1).val < win0_4.index t (1 : Fin 2) * 324 + 324; omega

end Retrieval.Ker

end
-- ==== Proof.HostGlue.lean ====
/-
  What the kernel's three operand arrays hold when the kernel is launched, as functions of the arguments.

  The feature operand is the features flattened to 4096 × 12544. The fused weight operand (12544 × 512) is the
  concatenation, along the columns, of the transposed normalized class weights padded from 80 to 128 columns and the
  transposed regression weights padded from 324 to 384 columns. The bias operand is the bias padded from 324 to 384
  entries, as one row.
-/
import proofs.«111516_j15625091022925_2_alg».proof.Proof.Gen.KernelIdeal.Value
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import proofs.«111516_j15625091022925_2_alg».proof.Proof.Payload
import proofs.«111516_j15625091022925_2_alg».proof.Proof.RefSide

noncomputable section

open scoped BigOperators

namespace Retrieval.Ker

open Idealize.ShloMosaic Idealize.ShloMosaic.ValueIdx Idealize.ShloMosaic.TcCoe Idealize.ShloMosaic.StableHlo Cert.KernelIdeal Cert.KernelIdeal.Gen Retrieval

variable (m : (ℓ : Loc nD τ sig) → Buf (Elt Ideal) ℓ)

/-- The feature operand at launch: the features flattened. -/
theorem features_at_launch (c : Dev nD) :
    (V m c main_v0 : S4096x12544.Idx → EReal)
      = shapeCast S4096x12544 (m ((c : Thread nD τ).loc main_arg0)) Facts₀.shapeCasts_S4096x256x7x7_S4096x12544 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The bias operand at launch: the bias padded with zeros to 384 entries, as one row. -/
theorem bias_at_launch (c : Dev nD) :
    (V m c main_v17 : S1x384.Idx → EReal)
      = shapeCast S1x384 (pad S384 ![0] ![60] ![0] (m ((c : Thread nD τ).loc main_arg3))
          (sitofp (F := Ideal) .f32 (constantI S_ 32 0#32)) Facts₀.pads_S324_S384_0600 Facts₀.h_S_) Facts₀.shapeCasts_S384_S1x384 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The class weights, each row divided by its clamped norm, as the host operations before the launch compute them. -/
def normW (x1 : S80x12544.Idx → EReal) : S80x12544.Idx → EReal :=
  Host.divf (F := Ideal) x1 (broadcastInDim S80x12544 ![0, 1] Facts₀.bcast_S80x1_S80x12544_0_1
    (maximumf (F := Ideal) (Host.sqrt (F := Ideal) (broadcastInDim S80x1 ![0] Facts₀.bcast_S80_S80x1_0
        (Host.reduceAdd (F := Ideal) (mulf (F := Ideal) x1 x1) (constant (F := Ideal) S_ .f32 0x00000000#32) Facts₀.reducesTo_S80x12544_S80_d1 Facts₀.h_S_)))
      (broadcastInDim S80x1 ![] Facts₀.bcast_S_S80x1 (constant (F := Ideal) S_ .f32 0x2B8CBCCC#32))))

/-- They are the reference's normalized class weights: at `(c, k)` the weight divided by its row's clamped norm. -/
theorem normW_apply (x1 : S80x12544.Idx → EReal) (c : Fin 80) (k : Fin 12544) :
    normW x1 (ix2 c k) = Ideal.div (x1 (ix2 c k)) (clampNorm (rowSS x1 c)) :=
  Retrieval.Ref.weights_normalized x1 c k

/-- The fused weight matrix, 12544 × 512: the transposed normalized class weights padded with zero columns to 128
    columns, then the transposed regression weights padded to 384 columns. -/
def fusedW (x1 : S80x12544.Idx → EReal) (x2 : S324x12544.Idx → EReal) : S12544x512.Idx → EReal :=
  concatenate S12544x512 1
    [⟨S12544x128, pad S12544x128 ![0, 0] ![0, 48] ![0, 0]
        (truncf (F := Ideal) .bf16 (transpose S12544x80 [1, 0] (normW x1) Facts₀.transposes_S80x12544_S12544x80_1_0) Facts₀.bitsLt_bf16_f32)
        (sitofp (F := Ideal) .bf16 (constantI S_ 32 0#32)) Facts₀.pads_S12544x80_S12544x128_000_0480 Facts₀.h_S_⟩,
     ⟨S12544x384, pad S12544x384 ![0, 0] ![0, 60] ![0, 0]
        (truncf (F := Ideal) .bf16 (transpose S12544x324 [1, 0] x2 Facts₀.transposes_S324x12544_S12544x324_1_0) Facts₀.bitsLt_bf16_f32)
        (sitofp (F := Ideal) .bf16 (constantI S_ 32 0#32)) Facts₀.pads_S12544x324_S12544x384_000_0600 Facts₀.h_S_⟩]
    Facts₀.concatenates_S12544x128_S12544x384_S12544x512_d1

/-- The fused weight operand at launch. -/
theorem weights_at_launch (c : Dev nD) :
    (V m c main_v15 : S12544x512.Idx → EReal)
      = fusedW (m ((c : Thread nD τ).loc main_arg1)) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Column `j < 80` of the fused weights is the normalized class-weight row `j`. -/
theorem fusedW_cls (x1 : S80x12544.Idx → EReal) (x2 : S324x12544.Idx → EReal) (k : Fin 12544) (j : Fin 80) :
    fusedW x1 x2 (ix2 k (clsCol j)) = normW x1 (ix2 j k) := by
  unfold fusedW
  refine (concatenate_pair_apply_left (t := S12544x512) (s₁ := S12544x128) (s₂ := S12544x384) (1 : Fin 2) _ _ Facts₀.concatenates_S12544x128_S12544x384_S12544x512_d1
    (ix2 k (clsCol j)) rfl (ix2 k (⟨j.val, by omega⟩ : Fin 128))
    (fun b => by match b with | ⟨0, _⟩ => rfl | ⟨1, _⟩ => rfl)).trans ?_
  refine (pad_apply_of_inside (s := S12544x80) (t := S12544x128) ![0, 0] ![0, 48] ![0, 0] _ _ Facts₀.pads_S12544x80_S12544x128_000_0480 Facts₀.h_S_
    (ix2 k (⟨j.val, by omega⟩ : Fin 128)) (ix2 k j)
    (fun a => by
      match a with
      | ⟨0, _⟩ => show k.val = 0 + k.val * (0 + 1); omega
      | ⟨1, _⟩ => show j.val = 0 + j.val * (0 + 1); omega)).trans ?_
  exact transpose_ix2_apply (normW x1) Facts₀.transposes_S80x12544_S12544x80_1_0 k j

/-- Column `128 + q`, `q < 324`, of the fused weights is the regression-weight row `q`. -/
theorem fusedW_box (x1 : S80x12544.Idx → EReal) (x2 : S324x12544.Idx → EReal) (k : Fin 12544) (q : Fin 324) :
    fusedW x1 x2 (ix2 k (boxCol q)) = x2 (ix2 q k) := by
  unfold fusedW
  refine (concatenate_pair_apply_right (t := S12544x512) (s₁ := S12544x128) (s₂ := S12544x384) (1 : Fin 2) _ _ Facts₀.concatenates_S12544x128_S12544x384_S12544x512_d1
    (ix2 k (boxCol q)) rfl rfl (ix2 k (⟨q.val, by omega⟩ : Fin 384))
    (fun b hb => by match b with | ⟨0, _⟩ => rfl | ⟨1, _⟩ => exact absurd rfl hb)
    (by show q.val + 128 = q.val + 128; rfl)).trans ?_
  refine (pad_apply_of_inside (s := S12544x324) (t := S12544x384) ![0, 0] ![0, 60] ![0, 0] _ _ Facts₀.pads_S12544x324_S12544x384_000_0600 Facts₀.h_S_
    (ix2 k (⟨q.val, by omega⟩ : Fin 384)) (ix2 k q)
    (fun a => by
      match a with
      | ⟨0, _⟩ => show k.val = 0 + k.val * (0 + 1); omega
      | ⟨1, _⟩ => show q.val = 0 + q.val * (0 + 1); omega)).trans ?_
  exact transpose_ix2_apply x2 Facts₀.transposes_S324x12544_S12544x324_1_0 k q

/-- Entry `q < 324` of the bias row at launch is the bias. -/
theorem bias_row_apply (c : Dev nD) (q : Fin 324) :
    (V m c main_v17 : S1x384.Idx → EReal) (ix2 (0 : Fin 1) (⟨q.val, by omega⟩ : Fin 384))
      = m ((c : Thread nD τ).loc main_arg3) (ix1 q) := by
  rw [bias_at_launch]
  refine (shapeCast_apply _ Facts₀.shapeCasts_S384_S1x384 (ix2 (0 : Fin 1) (⟨q.val, by omega⟩ : Fin 384))
    (ix1 (⟨q.val, by omega⟩ : Fin 384))
    (by rw [Shape.rowMajor_val_one, Shape.rowMajor_val_two]; show q.val = 0 * 384 + q.val; omega)).trans ?_
  exact pad_apply_of_inside (s := S324) (t := S384) ![0] ![60] ![0] _ _ Facts₀.pads_S324_S384_0600 Facts₀.h_S_
    (ix1 (⟨q.val, by omega⟩ : Fin 384)) (ix1 q)
    (fun a => by match a with | ⟨0, _⟩ => show q.val = 0 + q.val * (0 + 1); omega)

end Retrieval.Ker

end
-- ==== Proof.KernelRun.lean ====
/-
  The kernel's run, with each result array as the specification's function of the arguments.

  The result arrays end holding the kernel's functions of its operands as launched; the operands are the flattened
  features, the fused weights and the padded bias row. Column `j` of the fused weights is normalized class-weight row
  `j`, so the kernel's cosine — the reciprocal of the clamped norm times the inner product — is the inner product of
  the two normalized rows, and its score the reference's; column `128 + q` is regression-weight row `q` and entry
  `q` of the padded bias row is the bias.
-/
import proofs.«111516_j15625091022925_2_alg».proof.Proof.Blocks
import proofs.«111516_j15625091022925_2_alg».proof.Proof.HostGlue

noncomputable section

open scoped BigOperators

namespace Retrieval.Ker

open Idealize.ShloMosaic Idealize.ShloMosaic.ValueIdx Idealize.ShloMosaic.TcCoe Idealize.SL.Sem
open Cert.KernelIdeal Cert.KernelIdeal.Gen Retrieval

/-- Over the fused weights the kernel's scores are the specification's classification scores. -/
theorem scores_spec (X : S4096x12544.Idx → EReal) (x1 : S80x12544.Idx → EReal) (x2 : S324x12544.Idx → EReal) :
    scoresK X (fusedW x1 x2) = clsScores X x1 := by
  funext i
  obtain ⟨b, j, rfl⟩ : ∃ (b : Fin 4096) (j : Fin 80), i = ix2 b j := ⟨i 0, i 1, eq_ix2 i⟩
  show scoreK (cosK (rowSS (R := 4096) X b) (∑ k : Fin 12544, X (ix2 b k) * fusedW x1 x2 (ix2 k (clsCol j))))
    = scoreR (cosine X x1 b j)
  rw [scoreK_eq_scoreR]
  simp only [fusedW_cls, normW_apply]
  exact congrArg scoreR (cosK_eq (rowSS (R := 4096) X b) (fun k => X (ix2 b k))
    (fun k => Ideal.div (x1 (ix2 j k)) (clampNorm (rowSS x1 j))))

/-- Over the fused weights and a bias row whose first 324 entries are the bias, the kernel's boxes are the
    specification's box regression. -/
theorem boxes_spec (X : S4096x12544.Idx → EReal) (x1 : S80x12544.Idx → EReal) (x2 : S324x12544.Idx → EReal)
    (Bc : S1x384.Idx → EReal) (x3 : S324.Idx → EReal)
    (hB : ∀ q : Fin 324, Bc (ix2 (0 : Fin 1) (⟨q.val, by omega⟩ : Fin 384)) = x3 (ix1 q)) :
    boxesK X (fusedW x1 x2) Bc = boxes X x2 x3 := by
  funext i
  obtain ⟨b, q, rfl⟩ : ∃ (b : Fin 4096) (q : Fin 324), i = ix2 b q := ⟨i 0, i 1, eq_ix2 i⟩
  show (∑ k : Fin 12544, X (ix2 b k) * fusedW x1 x2 (ix2 k (boxCol q))) + Bc (ix2 (0 : Fin 1) (⟨q.val, by omega⟩ : Fin 384))
    = (∑ k : Fin 12544, X (ix2 b k) * x2 (ix2 q k)) + x3 (ix1 q)
  simp only [fusedW_box]
  rw [hB q]

variable (m : (ℓ : Loc nD τ sig) → Buf (Elt Ideal) ℓ) (ρ : Dev nD → PrngReg)

/-- Every weakly fair execution of the kernel's program terminates with the two results at the specification's
    functions of the arguments, and the arguments unchanged. -/
theorem run : θ_run defs (onTc (τ := τ) (main (F := Ideal))) ⟨m, fun _ => 0, ρ⟩ fun r => ∀ c : Dev nD,
      r.2.mem ((c : Thread nD τ).loc main_v18_0)
        = clsScores (shapeCast S4096x12544 (m ((c : Thread nD τ).loc main_arg0)) Facts₀.shapeCasts_S4096x256x7x7_S4096x12544)
            (m ((c : Thread nD τ).loc main_arg1))
      ∧ r.2.mem ((c : Thread nD τ).loc main_v18_1)
        = boxes (shapeCast S4096x12544 (m ((c : Thread nD τ).loc main_arg0)) Facts₀.shapeCasts_S4096x256x7x7_S4096x12544)
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((score_final m c).trans (by
          rw [features_at_launch, weights_at_launch]
          exact scores_spec _ _ _)),
        (h c).2.1.trans ((box_final m c).trans (by
          rw [features_at_launch, weights_at_launch]
          exact boxes_spec _ _ _ _ _ (bias_row_apply m c))),
        (h c).2.2⟩)
    (Cert.KernelIdeal.Value.run_blocks m ρ)

end Retrieval.Ker

end
-- ==== Proof.lean ====
/- The proof of `Cert.Claim`: the kernel and its idealization run and keep their arguments (their generated frames);
   the reference runs and keeps its arguments (its generated run); the ideal pass rewrote nothing; and at the exact
   values the kernel's two results equal the reference's, index by index.

   The mathematics of the last part. Sample `b`'s classification score against class `c` is a pointwise function of
   the cosine of the feature row and the class-weight row. The reference divides each row by its clamped norm
   `max (√Σ·²) 1e-12` and contracts; the kernel contracts the raw feature row with the normalized weight row and scales
   by `1 / max (√Σ·²) 1e-12` afterwards. The clamped norm is at least a positive real, so its inverse is a nonnegative
   extended real other than `⊤`, and such a factor moves across a finite sum of extended reals: the cosines agree for
   every input. The score's tail ends, in the kernel, in `log a − log b` and, in the reference, in `log (a / b)`, where
   `a` and `b` are clamps of a number clipped to `[0, 1]`, hence positive reals: the law of logarithms. The box
   regression is the same inner product on both sides, read through the kernel's fused, padded weight matrix. -/
import proofs.«111516_j15625091022925_2_alg».proof.Defs
import proofs.«111516_j15625091022925_2_alg».proof.Proof.Gen.Kernel
import proofs.«111516_j15625091022925_2_alg».proof.Proof.Gen.Kernel.Skeleton
import proofs.«111516_j15625091022925_2_alg».proof.Proof.Gen.Kernel.Launch
import proofs.«111516_j15625091022925_2_alg».proof.Proof.Gen.Kernel.Points
import proofs.«111516_j15625091022925_2_alg».proof.Proof.Gen.Kernel.Frame
import proofs.«111516_j15625091022925_2_alg».proof.Proof.Gen.KernelIdeal
import proofs.«111516_j15625091022925_2_alg».proof.Proof.Gen.KernelIdeal.Skeleton
import proofs.«111516_j15625091022925_2_alg».proof.Proof.Gen.KernelIdeal.Launch
import proofs.«111516_j15625091022925_2_alg».proof.Proof.Gen.KernelIdeal.Points
import proofs.«111516_j15625091022925_2_alg».proof.Proof.Gen.KernelIdeal.Frame
import proofs.«111516_j15625091022925_2_alg».proof.Proof.Gen.ReferenceIdeal
import proofs.«111516_j15625091022925_2_alg».proof.Proof.Gen.Pre_finite_inputs
import proofs.«111516_j15625091022925_2_alg».proof.Proof.Gen.KernelIdeal.Value
import proofs.«111516_j15625091022925_2_alg».proof.Proof.Gen.ReferenceIdeal.Run
import proofs.«111516_j15625091022925_2_alg».proof.Proof.Gen.ReferenceIdeal.Read
import proofs.«111516_j15625091022925_2_alg».proof.Proof.RefSide
import proofs.«111516_j15625091022925_2_alg».proof.Proof.KernelRun
import Idealize.ShloMosaic.Adequacy
import Idealize.ShloMosaic.Init

noncomputable section

namespace Cert.Proof

open Idealize.ShloMosaic Idealize.SL.Sem Cert.Kernel

/-- At the exact values the two programs, run from memories that agree on the arguments, end with equal results:
    both results are the specification's functions of the arguments. -/
theorem algebraic : Cert.algebraic_KernelIdeal_ReferenceIdeal := by
  intro m ρ m' ρ' _ hagree
  refine ⟨_, _, Retrieval.Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1]
    exact (Cert.ReferenceIdeal.Read.val_main_v36_eq _ _).trans (Retrieval.Ref.cls_eq _ _)
  · rw [(hagree c).1, (hagree c).2.2.1, (hagree c).2.2.2]
    exact (Cert.ReferenceIdeal.Read.val_main_v40_eq _ _ _).trans (Retrieval.Ref.boxes_eq _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
